-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 67
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S256x128, .bf16⟩
  | .hbm, ⟨30, _⟩ => ⟨S128x128, .bf16⟩
  | .hbm, ⟨31, _⟩ => ⟨S128x40, .bf16⟩
  | .hbm, ⟨32, _⟩ => ⟨S100000x128, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .bf16⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S1x40, .f32⟩
  | .hbm, ⟨65, _⟩ => ⟨S100000x128, .f32⟩
  | .hbm, ⟨66, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S128x40, .bf16⟩
  | .local _ .vmem, ⟨23, _⟩ => ⟨S1x40, .f32⟩
  | .local _ .vmem, ⟨24, _⟩ => ⟨S5000x128, .f32⟩
  | .local _ .vmem, ⟨25, _⟩ => ⟨S5000x128, .f32⟩
  | .local _ .vmem, ⟨26, _⟩ => ⟨S5000x40, .f32⟩
  | .local _ .vmem, ⟨27, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S40_S1x40_1 : S40.BroadcastsInDim S1x40 (![1] : Fin 1 → Fin S1x40.rank)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .bf16 = 32 ∨ (Rect.block (s := S128x40) S128x40.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelBoundary.lean ====
/-
  The kernel program's run, read at its last boundary.

  The program is three kernel regions among four stretches of host operations. Along a run the contents of the
  TensorCore's buffers pass through seven boundaries: the launch memory, then alternately "after a stretch of host
  operations" (the operations' composed functions applied to the previous contents) and "after a region" (the
  region's arrays at what its blocks' write-backs leave, every other buffer as it was). The statement below says
  that every weakly fair execution terminates without a fault in a memory that holds, at EVERY buffer that
  outlives the kernels, the contents of the last boundary. The argument arrays and the two results are among those
  buffers, so both the frame and the values can be read from it.

  The proof runs the program as its list of segments (the host stretches and the regions, each with its entry and
  exit contents) through the library's theorem for programs of several regions; the final thread state holds
  every such buffer at the last boundary's contents, and holding a buffer at some contents beside the state
  interpretation of a final state says the state's memory has those contents.
-/
import proofs.«158908_j75127567942075_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory must satisfy: on every core, every buffer that outlives the kernels holds the contents of
    the last boundary of the run. -/
def AtLast (r : PUnit × MemSt nD τ sig (Elt F)) : Prop :=
  ∀ c : Dev nD, ∀ b ∈ Pipeline.ucRefs τ sig, r.2.mem (((c : Thread nD τ)).1, b) = W6 m ρ c b

set_option backward.isDefEq.respectTransparency.types false in
/-- Every weakly fair execution of the program from the memory `m` terminates, nothing faulting, in a memory that is
    the last boundary's contents at every buffer that outlives the kernels. -/
theorem run_last : θ_run defs (onTc (τ := τ) (main (F := F))) ⟨m, fun _ => 0, ρ⟩ (AtLast m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource is dealt to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      -- the first thread state: the launch memory's buffers, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      -- the last thread state holds every such buffer at the last boundary's contents: read them off the final state
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Boundary

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.LibRowTile.lean ====
/-
  A tile of rows against the whole array, at the ideal values, for the row-wise operations of a dense layer.

  Let Y be an n × d array, s an n × 1 column and b a 1 × d row, and let y, s', b' be a tile of B rows of Y, the same
  rows of s, and the row itself. Three operations are "row-local": their result at (r, q) depends only on row r of
  the operands. For each, the tile's result at row p is the whole array's result at row r whenever row p of the tile
  is row r of the array:

  * scaling each row by its entry of the column:   (Y ⊙ s)(r, q) = Y(r, q) · s(r, 0);
  * adding the row to every row:                   (Y ⊕ b)(r, q) = Y(r, q) + b(0, q);
  * clamping at zero:                              max(Y(r, q), 0).

  The tile spells the repetition of the column or of the row as a vector broadcast, the whole array as a
  broadcast-in-dimensions with the identity map of axes; the zero is a scalar splat on the tile and a broadcast of a
  rank-0 constant on the whole array. Nothing here needs finiteness: each side is the same product, sum or maximum of
  the same two extended reals.
-/
import Idealize.ShloMosaic.Lib.ValueIdx
import Idealize.ShloMosaic.Lib.ValueLayout
import Idealize.ShloMosaic.Lib.Pipeline.Value
import Idealize.ShloMosaic.PureOps.Ideal.Laws
import proofs.«158908_j75127567942075_2_alg».proof.Proof.LibColumn

noncomputable section

namespace Cert.Lib.RowTile

open Idealize.ShloMosaic Idealize.ShloMosaic.ValueIdx

variable {n d B : Nat}

/-- An n × 1 column repeated along the second axis (a broadcast-in-dimensions with the identity map of axes) reads,
    at (r, q), the column's entry r. -/
theorem columnInDim_apply {α : Type} (s : (⟨2, ![n, 1]⟩ : Shape).Idx → α)
    (h : (⟨2, ![n, 1]⟩ : Shape).BroadcastsInDim ⟨2, ![n, d]⟩ ![0, 1]) (r : Fin n) (q : Fin d) :
    broadcastInDim ⟨2, ![n, d]⟩ ![0, 1] h s (ix2 r q) = s (ix2 r (0 : Fin 1)) := by
  refine broadcastInDim_apply ![0, 1] h s (ix2 r q) (ix2 r (0 : Fin 1)) fun ax => ?_
  match ax with
  | ⟨0, _⟩ =>
    show r.val = if n = 1 then 0 else r.val
    split
    · have := r.isLt; omega
    · rfl
  | ⟨1, _⟩ => rfl

/-- A 1 × d row repeated along the first axis (a broadcast-in-dimensions with the identity map of axes) reads, at
    (r, q), the row's entry q. -/
theorem rowInDim_apply {α : Type} (b : (⟨2, ![1, d]⟩ : Shape).Idx → α)
    (h : (⟨2, ![1, d]⟩ : Shape).BroadcastsInDim ⟨2, ![n, d]⟩ ![0, 1]) (r : Fin n) (q : Fin d) :
    broadcastInDim ⟨2, ![n, d]⟩ ![0, 1] h b (ix2 r q) = b (ix2 (0 : Fin 1) q) := by
  refine broadcastInDim_apply ![0, 1] h b (ix2 r q) (ix2 (0 : Fin 1) q) fun ax => ?_
  match ax with
  | ⟨0, _⟩ => rfl
  | ⟨1, _⟩ =>
    show q.val = if d = 1 then 0 else q.val
    split
    · have := q.isLt; omega
    · rfl

/-- Rows scaled by a column: the tile's product at row p is the whole array's at row r. -/
theorem scale_tile (y : FVec Ideal ⟨2, ![B, d]⟩ .f32) (s' : FVec Ideal ⟨2, ![B, 1]⟩ .f32)
    (hs : (⟨2, ![B, 1]⟩ : Shape).Broadcasts ⟨2, ![B, d]⟩)
    (Y : FVec Ideal ⟨2, ![n, d]⟩ .f32) (s : FVec Ideal ⟨2, ![n, 1]⟩ .f32)
    (hb : (⟨2, ![n, 1]⟩ : Shape).BroadcastsInDim ⟨2, ![n, d]⟩ ![0, 1])
    (p : Fin B) (q : Fin d) (r : Fin n)
    (hy : y (ix2 p q) = Y (ix2 r q)) (hc : s' (ix2 p (0 : Fin 1)) = s (ix2 r (0 : Fin 1))) :
    mulf y (broadcastTo ⟨2, ![B, d]⟩ s' hs) (ix2 p q)
      = mulf Y (broadcastInDim ⟨2, ![n, d]⟩ ![0, 1] hb s) (ix2 r q) := by
  rw [mulf_apply, mulf_apply, Cert.Lib.Column.broadcastTo_a1_ab_apply, columnInDim_apply, hy, hc]

/-- A row added to every row: the tile's sum at row p is the whole array's at row r. -/
theorem addRow_tile (y : FVec Ideal ⟨2, ![B, d]⟩ .f32) (b' : FVec Ideal ⟨2, ![1, d]⟩ .f32)
    (hs : (⟨2, ![1, d]⟩ : Shape).Broadcasts ⟨2, ![B, d]⟩)
    (Y : FVec Ideal ⟨2, ![n, d]⟩ .f32) (b : FVec Ideal ⟨2, ![1, d]⟩ .f32)
    (hb : (⟨2, ![1, d]⟩ : Shape).BroadcastsInDim ⟨2, ![n, d]⟩ ![0, 1])
    (p : Fin B) (q : Fin d) (r : Fin n)
    (hy : y (ix2 p q) = Y (ix2 r q)) (hr : b' (ix2 (0 : Fin 1) q) = b (ix2 (0 : Fin 1) q)) :
    addf y (broadcastTo ⟨2, ![B, d]⟩ b' hs) (ix2 p q)
      = addf Y (broadcastInDim ⟨2, ![n, d]⟩ ![0, 1] hb b) (ix2 r q) := by
  rw [addf_apply, addf_apply, broadcastTo_1b_ab_apply, rowInDim_apply, hy, hr]

/-- Clamping at zero: the tile's maximum with the splat of the zero word at row p is the whole array's maximum with
    the broadcast rank-0 zero constant at row r. -/
theorem relu_tile (y : FVec Ideal ⟨2, ![B, d]⟩ .f32) (Y : FVec Ideal ⟨2, ![n, d]⟩ .f32)
    (hz : (⟨0, ![]⟩ : Shape).BroadcastsInDim ⟨2, ![n, d]⟩ ![])
    (p : Fin B) (q : Fin d) (r : Fin n) (hy : y (ix2 p q) = Y (ix2 r q)) :
    maximumf y (broadcast ⟨2, ![B, d]⟩ (Scalar.ofBits (F := Ideal) .f32 0x00000000#32)) (ix2 p q)
      = maximumf Y (broadcastInDim ⟨2, ![n, d]⟩ ![] hz (constant (F := Ideal) ⟨0, ![]⟩ .f32 0x00000000#32)) (ix2 r q) := by
  rw [maximumf_apply, maximumf_apply, hy]
  rfl

end Cert.Lib.RowTile

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibRowBlockDot.lean ====
/-
  A row block of a matrix product, at the ideal values.

  For A of M×K and W of K×N the product A · W has at (r, q) the entry  ∑ c < K, A (r, c) · W (c, q):  row r of the
  product depends on row r of A only. So if X (B×K) holds row r of A as its row p — X (p, ·) = A (r, ·) — and W'
  agrees with W on column q, then the product X · W' accumulated onto the zero splat has at (p, q) the entry of
  A · W at (r, q). A product computed one tile of rows at a time is the product. This holds on the extended reals
  with no finiteness: the two sides are the same finite sum of the same products.
-/
import proofs.«158908_j75127567942075_2_alg».proof.Proof.LibMatmulNN

noncomputable section

open scoped BigOperators

namespace Idealize.ShloMosaic.RowBlockDot

open Idealize.ShloMosaic Idealize.ShloMosaic.ValueIdx

variable {M K N : Nat}

/-- The host's A · W (contracting axis 1 of A with axis 0 of W, no batch axis) at (a, b): the sum over the contracted
    coordinate of A (a, c) · W (c, b), whatever the precision and the schedule key. -/
theorem dotGeneral_apply {φ₁ φ₂ : FTy} (prec : Option ContractPrecision) (sched : HostSchedule)
    (A : FVec Ideal ⟨2, ![M, K]⟩ φ₁) (W : FVec Ideal ⟨2, ![K, N]⟩ φ₂) (a : Fin M) (b : Fin N) :
    FloatOps.dotGeneral (DotDims.plain M K N) prec sched A W (ix2 a b) = ∑ c : Fin K, A (ix2 a c) * W (ix2 c b) := by
  rw [Ideal.dotGeneral_apply, ← Equiv.sum_comp (contrEquiv1 (DotDims.plain M K N) K rfl rfl).symm]
  refine Finset.sum_congr rfl fun c _ => ?_
  rw [MatmulNN.lhsIdx_plain, MatmulNN.rhsIdx_plain]

/-- A tile of rows times the right operand, into the zero splat, read at (p, q), is the whole product at (r, q) when
    row p of the tile is row r of the whole left operand and the two right operands agree on column q. -/
theorem matmul_rowBlock {B : Nat} {φ₁ φ₂ ψ₁ ψ₂ : FTy} (prec prec' : Option ContractPrecision) (sched : HostSchedule)
    (A : FVec Ideal ⟨2, ![M, K]⟩ φ₁) (W : FVec Ideal ⟨2, ![K, N]⟩ φ₂)
    (X : FVec Ideal ⟨2, ![B, K]⟩ ψ₁) (W' : FVec Ideal ⟨2, ![K, N]⟩ ψ₂) (p : Fin B) (q : Fin N) (r : Fin M)
    (hX : ∀ c : Fin K, X (ix2 p c) = A (ix2 r c)) (hW : ∀ c : Fin K, W' (ix2 c q) = W (ix2 c q)) :
    FloatOps.matmul (DotDims.plain B K N) prec X W' (constant ⟨2, ![B, N]⟩ .f32 0x00000000#32) (ix2 p q)
      = FloatOps.dotGeneral (DotDims.plain M K N) prec' sched A W (ix2 r q) := by
  rw [MatmulNN.matmul_zero_apply, dotGeneral_apply]
  exact Finset.sum_congr rfl fun c _ => by rw [hX c, hW c]

end Idealize.ShloMosaic.RowBlockDot

end
-- ==== Proof.Tiles.lean ====
/-
  The three kernel bodies against whole-array functions, one tile of rows at a time.

  With N = 100000 nodes, the program's dense stages are, as functions of whole arrays (A the aggregated features,
  c_src and c_dst the N × 1 columns of degree factors, b a 1 × d row of biases, W a matrix of weights):

    layer0  X W c_src            = (X · W) ⊙ c_src                                     (N × 128)
    hidden  A c_dst b            = (A ⊙ c_dst) ⊕ b                                     (N × 128)
    layer1  A c_dst b c_src W    = (max(hidden A c_dst b, 0) · W) ⊙ c_src              (N × 128)
    logits  A c_dst b W b'       = (max(hidden A c_dst b, 0) · W) ⊕ b'                 (N × 40)

  where ⊙ scales row r by the column's entry r and ⊕ adds the row to every row. Every one of them is row-local: row
  r of the result depends only on row r of X (or A) and of the columns. Each kernel body computes the same expression
  on a tile of 5000 rows, with the matrix product taken on the tile. So the body's value at row p of the tile is the
  whole-array function at row r whenever row p of each tiled operand is row r of the whole operand (and the untiled
  operands, the weights and the bias rows, agree). Rounding to a narrower float format and back is the identity on
  extended reals, so the formats do not enter. No finiteness is used: the two sides are the same sums of the same
  products.
-/
import proofs.«158908_j75127567942075_2_alg».proof.Proof.Gen.KernelIdeal.Skeleton
import proofs.«158908_j75127567942075_2_alg».proof.Proof.LibRowTile
import proofs.«158908_j75127567942075_2_alg».proof.Proof.LibRowBlockDot

noncomputable section

namespace Cert.KernelIdeal.Layers

open Cert.KernelIdeal Cert.KernelIdeal.Gen Idealize.ShloMosaic Idealize.ShloMosaic.ValueIdx Cert.Lib.RowTile

/-- What justifies repeating an N × 1 column along 128 lanes, a 1 × d row along N rows, and a rank-0 constant over
    an N × 128 array. -/
abbrev ColOk : Prop := S100000x1.BroadcastsInDim S100000x128 ![0, 1]
abbrev RowOk : Prop := S1x128.BroadcastsInDim S100000x128 ![0, 1]
abbrev Row40Ok : Prop := S1x40.BroadcastsInDim S100000x40 ![0, 1]
abbrev ZeroOk : Prop := S_.BroadcastsInDim S100000x128 ![]

/-- (X · W) ⊙ c_src. -/
def layer0 (hc : ColOk) (X : FVec Ideal S100000x256 .f32) (W : FVec Ideal S256x128 .bf16) (cs : FVec Ideal S100000x1 .f32) :
    FVec Ideal S100000x128 .f32 :=
  mulf (Host.dotGeneral (DotDims.plain 100000 256 128) none X W) (broadcastInDim S100000x128 ![0, 1] hc cs)

/-- (A ⊙ c_dst) ⊕ b. -/
def hidden (hc : ColOk) (hr : RowOk) (A : FVec Ideal S100000x128 .f32) (cd : FVec Ideal S100000x1 .f32) (b : FVec Ideal S1x128 .f32) :
    FVec Ideal S100000x128 .f32 :=
  addf (mulf A (broadcastInDim S100000x128 ![0, 1] hc cd)) (broadcastInDim S100000x128 ![0, 1] hr b)

/-- max(·, 0), the zero a broadcast rank-0 constant. -/
def relu (hz : ZeroOk) (Y : FVec Ideal S100000x128 .f32) : FVec Ideal S100000x128 .f32 :=
  maximumf Y (broadcastInDim S100000x128 ![] hz (constant (F := Ideal) S_ .f32 0x00000000#32))

/-- (max(hidden, 0) · W) ⊙ c_src. -/
def layer1 (hc : ColOk) (hr : RowOk) (hz : ZeroOk) (A : FVec Ideal S100000x128 .f32) (cd : FVec Ideal S100000x1 .f32)
    (b : FVec Ideal S1x128 .f32) (cs : FVec Ideal S100000x1 .f32) (W : FVec Ideal S128x128 .bf16) : FVec Ideal S100000x128 .f32 :=
  mulf (Host.dotGeneral (DotDims.plain 100000 128 128) none (relu hz (hidden hc hr A cd b)) W) (broadcastInDim S100000x128 ![0, 1] hc cs)

/-- (max(hidden, 0) · W) ⊕ b'. -/
def logits (hc : ColOk) (hr : RowOk) (hz : ZeroOk) (hr' : Row40Ok) (A : FVec Ideal S100000x128 .f32) (cd : FVec Ideal S100000x1 .f32)
    (b : FVec Ideal S1x128 .f32) (W : FVec Ideal S128x40 .bf16) (b' : FVec Ideal S1x40 .f32) : FVec Ideal S100000x40 .f32 :=
  addf (Host.dotGeneral (DotDims.plain 100000 128 40) none (relu hz (hidden hc hr A cd b)) W) (broadcastInDim S100000x40 ![0, 1] hr' b')

/-- A block's rectangle starts at the origin of its staging buffer. -/
theorem zero2 : (![0, 0] : Fin 2 → Nat) = fun _ => 0 := funext fun a => by fin_cases a <;> rfl

/-! ## The tiles -/

/-- The first kernel's body at row p of a tile is `layer0` at row r. -/
theorem tile0 (hc : ColOk) (x0 : Vec Ideal S5000x256 .f32) (x1 : Vec Ideal S256x128 .bf16) (x2 : Vec Ideal S5000x1 .f32)
    (X : FVec Ideal S100000x256 .f32) (W : FVec Ideal S256x128 .bf16) (cs : FVec Ideal S100000x1 .f32)
    (p : Fin 5000) (q : Fin 128) (r : Fin 100000)
    (h0 : ∀ k : Fin 256, x0 (ix2 p k) = X (ix2 r k)) (h1 : ∀ k : Fin 256, x1 (ix2 k q) = W (ix2 k q))
    (h2 : x2 (ix2 p (0 : Fin 1)) = cs (ix2 r (0 : Fin 1))) :
    k0_pay1 (F := Ideal) x0 x1 x2 (ix2 p q) = layer0 hc X W cs (ix2 r q) := by
  unfold k0_pay1 layer0
  simp only [shapeCast_self]
  exact scale_tile _ _ _ _ _ hc p q r
    (RowBlockDot.matmul_rowBlock none none .single X W _ x1 p q r h0 h1) h2

/-- The hidden activations on a tile: row p of the tile is `hidden` at row r. -/
theorem hidden_tile (hc : ColOk) (hr : RowOk) (x0 : FVec Ideal S5000x128 .f32) (x1 : FVec Ideal S5000x1 .f32) (x2 : FVec Ideal S1x128 .f32)
    (A : FVec Ideal S100000x128 .f32) (cd : FVec Ideal S100000x1 .f32) (b : FVec Ideal S1x128 .f32)
    (p : Fin 5000) (k : Fin 128) (r : Fin 100000)
    (h0 : x0 (ix2 p k) = A (ix2 r k)) (h1 : x1 (ix2 p (0 : Fin 1)) = cd (ix2 r (0 : Fin 1)))
    (h2 : x2 (ix2 (0 : Fin 1) k) = b (ix2 (0 : Fin 1) k)) :
    addf (mulf x0 (broadcastTo S5000x128 x1 broadcasts_S5000x1_S5000x128)) (broadcastTo S5000x128 x2 broadcasts_S1x128_S5000x128) (ix2 p k)
      = hidden hc hr A cd b (ix2 r k) :=
  addRow_tile _ _ _ _ _ hr p k r (scale_tile _ _ _ _ _ hc p k r h0 h1) h2

/-- The second kernel's body at row p of a tile is `layer1` at row r. -/
theorem tile1 (hc : ColOk) (hr : RowOk) (hz : ZeroOk)
    (x0 : Vec Ideal S5000x128 .f32) (x1 : Vec Ideal S5000x1 .f32) (x2 : Vec Ideal S1x128 .f32) (x4 : Vec Ideal S128x128 .bf16) (x3 : Vec Ideal S5000x1 .f32)
    (A : FVec Ideal S100000x128 .f32) (cd : FVec Ideal S100000x1 .f32) (b : FVec Ideal S1x128 .f32) (cs : FVec Ideal S100000x1 .f32)
    (W : FVec Ideal S128x128 .bf16) (p : Fin 5000) (q : Fin 128) (r : Fin 100000)
    (h0 : ∀ k : Fin 128, x0 (ix2 p k) = A (ix2 r k)) (h1 : x1 (ix2 p (0 : Fin 1)) = cd (ix2 r (0 : Fin 1)))
    (h2 : ∀ k : Fin 128, x2 (ix2 (0 : Fin 1) k) = b (ix2 (0 : Fin 1) k)) (h3 : x3 (ix2 p (0 : Fin 1)) = cs (ix2 r (0 : Fin 1)))
    (h4 : ∀ k : Fin 128, x4 (ix2 k q) = W (ix2 k q)) :
    k1_pay1 (F := Ideal) x0 x1 x2 x4 x3 (ix2 p q) = layer1 hc hr hz A cd b cs W (ix2 r q) := by
  unfold k1_pay1 layer1
  simp only [shapeCast_self]
  exact scale_tile _ _ _ _ _ hc p q r
    (RowBlockDot.matmul_rowBlock none none .single (relu hz (hidden hc hr A cd b)) W _ x4 p q r
      (fun k => relu_tile _ _ hz p k r (hidden_tile hc hr x0 x1 x2 A cd b p k r (h0 k) h1 (h2 k))) h4) h3

/-- The third kernel's first store at row p of a tile is `hidden` at row r. -/
theorem tile2h (hc : ColOk) (hr : RowOk)
    (x0 : Vec Ideal S5000x128 .f32) (x1 : Vec Ideal S5000x1 .f32) (x2 : Vec Ideal S1x128 .f32)
    (A : FVec Ideal S100000x128 .f32) (cd : FVec Ideal S100000x1 .f32) (b : FVec Ideal S1x128 .f32)
    (p : Fin 5000) (q : Fin 128) (r : Fin 100000)
    (h0 : x0 (ix2 p q) = A (ix2 r q)) (h1 : x1 (ix2 p (0 : Fin 1)) = cd (ix2 r (0 : Fin 1)))
    (h2 : x2 (ix2 (0 : Fin 1) q) = b (ix2 (0 : Fin 1) q)) :
    k2_pay1 (F := Ideal) x0 x1 x2 (ix2 p q) = hidden hc hr A cd b (ix2 r q) := by
  unfold k2_pay1
  simp only [shapeCast_self]
  exact hidden_tile hc hr x0 x1 x2 A cd b p q r h0 h1 h2

/-- The third kernel's second store at row p of a tile is `logits` at row r. -/
theorem tile2l (hc : ColOk) (hr : RowOk) (hz : ZeroOk) (hr' : Row40Ok)
    (x0 : Vec Ideal S5000x128 .f32) (x1 : Vec Ideal S5000x1 .f32) (x2 : Vec Ideal S1x128 .f32) (x3 : Vec Ideal S128x40 .bf16) (x4 : Vec Ideal S1x40 .f32)
    (A : FVec Ideal S100000x128 .f32) (cd : FVec Ideal S100000x1 .f32) (b : FVec Ideal S1x128 .f32)
    (W : FVec Ideal S128x40 .bf16) (b' : FVec Ideal S1x40 .f32) (p : Fin 5000) (q : Fin 40) (r : Fin 100000)
    (h0 : ∀ k : Fin 128, x0 (ix2 p k) = A (ix2 r k)) (h1 : x1 (ix2 p (0 : Fin 1)) = cd (ix2 r (0 : Fin 1)))
    (h2 : ∀ k : Fin 128, x2 (ix2 (0 : Fin 1) k) = b (ix2 (0 : Fin 1) k))
    (h3 : ∀ k : Fin 128, x3 (ix2 k q) = W (ix2 k q)) (h4 : x4 (ix2 (0 : Fin 1) q) = b' (ix2 (0 : Fin 1) q)) :
    k2_pay2 (F := Ideal) x0 x1 x2 x3 x4 (ix2 p q) = logits hc hr hz hr' A cd b W b' (ix2 r q) := by
  unfold k2_pay2 logits
  simp only [shapeCast_self]
  exact addRow_tile _ _ _ _ _ hr' p q r
    (RowBlockDot.matmul_rowBlock none none .single (relu hz (hidden hc hr A cd b)) W _ x3 p q r
      (fun k => relu_tile _ _ hz p k r (tile2h hc hr x0 x1 x2 A cd b p k r (h0 k) h1 (h2 k))) h3) h4

end Cert.KernelIdeal.Layers

end
-- ==== Proof.Region0.lean ====
/-
  The first kernel region: its output array is `layer0` of the arrays the region finds.

  The region runs over 20 grid points; point t works on rows 5000·t … 5000·t + 4999: its blocks of the features X
  and of the column c_src are those rows, the weights are one block for every point, and it writes back those rows
  of the output. By the tile law (`tile0`) what point t writes back is therefore rows 5000·t … of the ONE array
  `layer0 X W c_src`; the 20 blocks tile the output's rows (row r is in the block of point r / 5000); so after the
  region the output array is that array, whatever the order of the write-backs.
-/
import proofs.«158908_j75127567942075_2_alg».proof.Proof.Gen.KernelIdeal.Frame
import proofs.«158908_j75127567942075_2_alg».proof.Proof.Tiles

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the tiled windows' block row is the point, every other block index is zero. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's tile is row 5000·t + p of the array. -/
def row0 (t : Fin cfg0.N) (p : Fin 5000) : Fin 100000 := ⟨5000 * t.val + p.val, by have := t.isLt; have h : cfg0.N = 20 := N_0; omega⟩

/-- What point t writes back is its block of `layer0` of the arrays the region finds. -/
theorem flushed0 (hc : ColOk) (c : Dev nD) (t : Fin cfg0.N) :
    (dat0 V c).flushed 3 t = ((cfg0.win 3).blk t).view.read (Elt Ideal) (layer0 hc (V c main_arg0) (V c main_v15) (V c main_v13)) := by
  show (cfg0.win 3).cut (grid0.coords t) ((dat0 V c).after 3 t) = _
  rw [after0_3]
  unfold out0_3
  rw [View.canon_unit_zero zero2]
  simp only [View.ld_unit_zero (S := S5000x256) zero2, View.ld_unit_zero (S := S256x128) zero2, View.ld_unit_zero (S := S5000x1) zero2]
  obtain ⟨e00, e01, e10, e11, e20, e21, e30, e31⟩ := index0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = layer0 hc (V c main_arg0) (V c main_v15) (V c main_v13) (((cfg0.win 3).blk t).view.emb (ix2 p q))
  have hemb : ((cfg0.win 3).blk t).view.emb (ix2 p q) = ix2 (row0 t p) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  rw [hemb]
  refine tile0 hc (iblk0 V c 0 t) (iblk0 V c 1 t) (iblk0 V c 2 t) (V c main_arg0) (V c main_v15) (V c main_v13) p q (row0 t p) ?_ ?_ ?_
  · intro k
    show V c main_arg0 (((cfg0.win 0).blk t).view.emb (ix2 p k)) = V c main_arg0 (ix2 (row0 t p) k)
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 256 + 1 * k.val = k.val; omega
  · intro k
    show V c main_v15 (((cfg0.win 1).blk t).view.emb (ix2 k q)) = V c main_v15 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show V c main_v13 (((cfg0.win 2).blk t).view.emb (ix2 p (0 : Fin 1))) = V c main_v13 (ix2 (row0 t p) (0 : Fin 1))
    refine congrArg _ (funext fun a => Fin.ext ?_)
    match a with
    | ⟨0, _⟩ => show win0_2.index t (0 : Fin 2) * 5000 + 1 * p.val = 5000 * t.val + p.val; omega
    | ⟨1, _⟩ => show win0_2.index t (1 : Fin 2) * 1 + 1 * 0 = 0; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The 20 blocks tile the output's rows: row r is in the block of point r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, e30, e31⟩ := index0 t
  have et : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is `layer0` of the arrays the region finds. -/
theorem array0 (hc : ColOk) (c : Dev nD) :
    (dat0 V c).arrAt 3 cfg0.N = layer0 hc (V c main_arg0) (V c main_v15) (V c main_v13) :=
  (dat0 V c).arrAt_eq_of_cover 3 _ (fun t _ => flushed0 V hc c t) cover0

end Cert.KernelIdeal.Layers

end
-- ==== Proof.Region1.lean ====
/-
  The second kernel region: its output array is `layer1` of the arrays the region finds.

  As in the first region, point t of the 20 works on rows 5000·t … 5000·t + 4999 of the aggregated features and of
  the two columns of degree factors; the bias row and the weights are one block for every point. By the tile law
  (`tile1`) point t writes back those rows of the ONE array `layer1 A c_dst b c_src W`, the blocks tile the output's
  rows, and so the output array after the region is that array.
-/
import proofs.«158908_j75127567942075_2_alg».proof.Proof.Gen.KernelIdeal.Frame
import proofs.«158908_j75127567942075_2_alg».proof.Proof.Tiles

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the tiled windows' block row is the point, every other block index is zero. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's tile is row 5000·t + p of the array. -/
def row1 (t : Fin cfg1.N) (p : Fin 5000) : Fin 100000 := ⟨5000 * t.val + p.val, by have := t.isLt; have h : cfg1.N = 20 := N_1; omega⟩

/-- What point t writes back is its block of `layer1` of the arrays the region finds. -/
theorem flushed1 (hc : ColOk) (hr : RowOk) (hz : ZeroOk) (c : Dev nD) (t : Fin cfg1.N) :
    (dat1 V c).flushed 5 t = ((cfg1.win 5).blk t).view.read (Elt Ideal)
      (layer1 hc hr hz (V c main_v29) (V c main_v14) (V c main_v30) (V c main_v13) (V c main_v16)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S5000x1) zero2, View.ld_unit_zero (S := S1x128) zero2,
    View.ld_unit_zero (S := S128x128) zero2]
  obtain ⟨e00, e01, e10, e11, e20, e21, e30, e31, e40, e41, e50, e51⟩ := index1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
      = layer1 hc hr hz (V c main_v29) (V c main_v14) (V c main_v30) (V c main_v13) (V c main_v16) (((cfg1.win 5).blk t).view.emb (ix2 p q))
  have hemb : ((cfg1.win 5).blk t).view.emb (ix2 p q) = ix2 (row1 t p) q := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  rw [hemb]
  refine tile1 hc hr hz (iblk1 V c 0 t) (iblk1 V c 1 t) (iblk1 V c 2 t) (iblk1 V c 4 t) (iblk1 V c 3 t)
    (V c main_v29) (V c main_v14) (V c main_v30) (V c main_v13) (V c main_v16) p q (row1 t p) ?_ ?_ ?_ ?_ ?_
  · intro k
    show V c main_v29 (((cfg1.win 0).blk t).view.emb (ix2 p k)) = V c main_v29 (ix2 (row1 t p) k)
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · show V c main_v14 (((cfg1.win 1).blk t).view.emb (ix2 p (0 : Fin 1))) = V c main_v14 (ix2 (row1 t p) (0 : Fin 1))
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 1 + 1 * 0 = 0; omega
  · intro k
    show V c main_v30 (((cfg1.win 2).blk t).view.emb (ix2 (0 : Fin 1) k)) = V c main_v30 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v13 (((cfg1.win 3).blk t).view.emb (ix2 p (0 : Fin 1))) = V c main_v13 (ix2 (row1 t p) (0 : Fin 1))
    refine congrArg _ (funext fun a => Fin.ext ?_)
    match a with
    | ⟨0, _⟩ => show win1_3.index t (0 : Fin 2) * 5000 + 1 * p.val = 5000 * t.val + p.val; omega
    | ⟨1, _⟩ => show win1_3.index t (1 : Fin 2) * 1 + 1 * 0 = 0; omega
  · intro k
    show V c main_v16 (((cfg1.win 4).blk t).view.emb (ix2 k q)) = V c main_v16 (ix2 k q)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The 20 blocks tile the output's rows: row r is in the block of point r / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e50, e51⟩ := index1 t
  have et : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region its output array is `layer1` of the arrays the region finds. -/
theorem array1 (hc : ColOk) (hr : RowOk) (hz : ZeroOk) (c : Dev nD) :
    (dat1 V c).arrAt 5 cfg1.N = layer1 hc hr hz (V c main_v29) (V c main_v14) (V c main_v30) (V c main_v13) (V c main_v16) :=
  (dat1 V c).arrAt_eq_of_cover 5 _ (fun t _ => flushed1 V hc hr hz c t) cover1

end Cert.KernelIdeal.Layers

end
-- ==== Proof.Region2.lean ====
/-
  The third kernel region: its two output arrays are `hidden` and `logits` of the arrays the region finds.

  Point t of the 20 works on rows 5000·t … 5000·t + 4999 of the aggregated features and of the column c_dst; the two
  bias rows and the classifier's weights are one block for every point. It writes back those rows of BOTH outputs:
  by the tile laws (`tile2h`, `tile2l`) they are those rows of the arrays `hidden A c_dst b` and
  `logits A c_dst b W b'`. Each output's 20 blocks tile its rows, so after the region the two output arrays are those
  two arrays.
-/
import proofs.«158908_j75127567942075_2_alg».proof.Proof.Gen.KernelIdeal.Frame
import proofs.«158908_j75127567942075_2_alg».proof.Proof.Tiles

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the tiled windows' block row is the point, every other block index is zero. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of point t's tile is row 5000·t + p of the array. -/
def row2 (t : Fin cfg2.N) (p : Fin 5000) : Fin 100000 := ⟨5000 * t.val + p.val, by have := t.isLt; have h : cfg2.N = 20 := N_2; omega⟩

/-- What point t writes back to the first output is its block of `hidden` of the arrays the region finds. -/
theorem flushed2h (hc : ColOk) (hr : RowOk) (c : Dev nD) (t : Fin cfg2.N) :
    (dat2 V c).flushed 5 t = ((cfg2.win 5).blk t).view.read (Elt Ideal)
      (hidden hc hr (V c main_v42) (V c main_v14) (V c main_v43)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S5000x1) zero2, View.ld_unit_zero (S := S1x128) zero2]
  obtain ⟨e00, e01, e10, e11, e20, e21, e30, e31, e40, e41, e50, e51, e60, e61⟩ := index2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
      = hidden hc hr (V c main_v42) (V c main_v14) (V c main_v43) (((cfg2.win 5).blk t).view.emb (ix2 p q))
  have hemb : ((cfg2.win 5).blk t).view.emb (ix2 p q) = ix2 (row2 t p) q := by
    funext a; apply Fin.ext
    match a with
    | ⟨0, _⟩ => show win2_5.index t (0 : Fin 2) * 5000 + 1 * p.val = 5000 * t.val + p.val; omega
    | ⟨1, _⟩ => show win2_5.index t (1 : Fin 2) * 128 + 1 * q.val = q.val; omega
  rw [hemb]
  refine tile2h hc hr (iblk2 V c 0 t) (iblk2 V c 1 t) (iblk2 V c 2 t) (V c main_v42) (V c main_v14) (V c main_v43) p q (row2 t p) ?_ ?_ ?_
  · show V c main_v42 (((cfg2.win 0).blk t).view.emb (ix2 p q)) = V c main_v42 (ix2 (row2 t p) q)
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * q.val = q.val; omega
  · show V c main_v14 (((cfg2.win 1).blk t).view.emb (ix2 p (0 : Fin 1))) = V c main_v14 (ix2 (row2 t p) (0 : Fin 1))
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  · show V c main_v43 (((cfg2.win 2).blk t).view.emb (ix2 (0 : Fin 1) q)) = V c main_v43 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega

/-- What point t writes back to the second output is its block of `logits` of the arrays the region finds. -/
theorem flushed2l (hc : ColOk) (hr : RowOk) (hz : ZeroOk) (hr' : Row40Ok) (c : Dev nD) (t : Fin cfg2.N) :
    (dat2 V c).flushed 6 t = ((cfg2.win 6).blk t).view.read (Elt Ideal)
      (logits hc hr hz hr' (V c main_v42) (V c main_v14) (V c main_v43) (V c main_v17) (V c main_v44)) := by
  show (cfg2.win 6).cut (grid2.coords t) ((dat2 V c).after 6 t) = _
  rw [after2_6]
  unfold out2_6
  rw [View.canon_unit_zero zero2]
  simp only [View.ld_unit_zero (S := S5000x128) zero2, View.ld_unit_zero (S := S5000x1) zero2, View.ld_unit_zero (S := S1x128) zero2,
    View.ld_unit_zero (S := S128x40) zero2, View.ld_unit_zero (S := S1x40) zero2]
  obtain ⟨e00, e01, e10, e11, e20, e21, e30, e31, e40, e41, e50, e51, e60, e61⟩ := index2 t
  funext j
  obtain ⟨p, q, rfl⟩ : ∃ (p : Fin 5000) (q : Fin 40), j = ix2 p q := ⟨j 0, j 1, eq_ix2 j⟩
  show k2_pay2 (iblk2 V c 0 t) (iblk2 V c 1 t) (iblk2 V c 2 t) (iblk2 V c 3 t) (iblk2 V c 4 t) (ix2 p q)
      = logits hc hr hz hr' (V c main_v42) (V c main_v14) (V c main_v43) (V c main_v17) (V c main_v44) (((cfg2.win 6).blk t).view.emb (ix2 p q))
  have hemb : ((cfg2.win 6).blk t).view.emb (ix2 p q) = ix2 (row2 t p) q := by
    funext a; apply Fin.ext
    match a with
    | ⟨0, _⟩ => show win2_6.index t (0 : Fin 2) * 5000 + 1 * p.val = 5000 * t.val + p.val; omega
    | ⟨1, _⟩ => show win2_6.index t (1 : Fin 2) * 40 + 1 * q.val = q.val; omega
  rw [hemb]
  refine tile2l hc hr hz hr' (iblk2 V c 0 t) (iblk2 V c 1 t) (iblk2 V c 2 t) (iblk2 V c 3 t) (iblk2 V c 4 t)
    (V c main_v42) (V c main_v14) (V c main_v43) (V c main_v17) (V c main_v44) p q (row2 t p) ?_ ?_ ?_ ?_ ?_
  · intro k
    show V c main_v42 (((cfg2.win 0).blk t).view.emb (ix2 p k)) = V c main_v42 (ix2 (row2 t p) k)
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  · show V c main_v14 (((cfg2.win 1).blk t).view.emb (ix2 p (0 : Fin 1))) = V c main_v14 (ix2 (row2 t p) (0 : Fin 1))
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  · intro k
    show V c main_v43 (((cfg2.win 2).blk t).view.emb (ix2 (0 : Fin 1) k)) = V c main_v43 (ix2 (0 : Fin 1) k)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · intro k
    show V c main_v17 (((cfg2.win 3).blk t).view.emb (ix2 k q)) = V c main_v17 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 40 + 1 * q.val = q.val; omega
  · show V c main_v44 (((cfg2.win 4).blk t).view.emb (ix2 (0 : Fin 1) q)) = V c main_v44 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 40 + 1 * q.val = q.val; omega

/-- An index of the first output is in point t's block iff each coordinate is in the block's range on its axis. -/
theorem mem_blk2h (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45_0).slice (win2_5.rect t)).set ↔ _
  rw [View.set_slice_whole, Rect.mem_set_unit]
  exact Iff.rfl

/-- The same for the second output. -/
theorem mem_blk2l (t : Fin cfg2.N) (i : S100000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v45_1).slice (win2_6.rect t)).set ↔ _
  rw [View.set_slice_whole, Rect.mem_set_unit]
  exact Iff.rfl

/-- The first output's 20 blocks tile its rows: row r is in the block of point r / 5000. -/
theorem cover2h (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, -, -, -, -, -, -, e50, e51, -, -⟩ := index2 t
  have et : t.val = (i 0).val / 5000 := rfl
  refine ⟨t, flush2_5 t, ?_⟩
  rw [mem_blk2h]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- So do the second output's. -/
theorem cover2l (i : S100000x40.Idx) : ∃ t : Fin cfg2.N, (cfg2.win 6).flush t = true ∧ i ∈ ((cfg2.win 6).blk t).view.set := by
  have hi0 : (i 0).val < 100000 := (i 0).isLt
  have hi1 : (i 1).val < 40 := (i 1).isLt
  have hN : cfg2.N = 20 := N_2
  let t : Fin cfg2.N := ⟨(i 0).val / 5000, by omega⟩
  obtain ⟨-, -, -, -, -, -, -, -, -, -, -, -, e60, e61⟩ := index2 t
  have et : t.val = (i 0).val / 5000 := rfl
  refine ⟨t, flush2_6 t, ?_⟩
  rw [mem_blk2l]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 40 ≤ (i 1).val ∧ (i 1).val < win2_6.index t (1 : Fin 2) * 40 + 40; omega

/-- After the region its first output array is `hidden` of the arrays the region finds. -/
theorem array2h (hc : ColOk) (hr : RowOk) (c : Dev nD) :
    (dat2 V c).arrAt 5 cfg2.N = hidden hc hr (V c main_v42) (V c main_v14) (V c main_v43) :=
  (dat2 V c).arrAt_eq_of_cover 5 _ (fun t _ => flushed2h V hc hr c t) cover2h

/-- And its second output array is `logits` of them. -/
theorem array2l (hc : ColOk) (hr : RowOk) (hz : ZeroOk) (hr' : Row40Ok) (c : Dev nD) :
    (dat2 V c).arrAt 6 cfg2.N = logits hc hr hz hr' (V c main_v42) (V c main_v14) (V c main_v43) (V c main_v17) (V c main_v44) :=
  (dat2 V c).arrAt_eq_of_cover 6 _ (fun t _ => flushed2l V hc hr hz hr' c t) cover2l

end Cert.KernelIdeal.Layers

end
-- ==== Proof.Network.lean ====
/-
  The whole computation as one composition of whole-array functions of the nine arguments.

  With x0 the node features, x1 and x2 the edge sources and targets, x3 … x8 the weights and biases of the two graph
  convolutions and of the classifier:

    c_src = D_out^(-1/2), c_dst = D_in^(-1/2)     columns of degree factors: a count of the edges at each node, by a
                                                   scatter-add of ones, clamped below at 1, inverse square root
    t0 = layer0 x0 x3 c_src                        transform, scale by the source factor
    a0 = aggregate t0                              gather the rows at the edges' sources, add them up at the targets
    t1 = layer1 a0 c_dst x4 c_src x5               finish layer 0 (target factor, bias, clamp), transform, scale
    a1 = aggregate t1
    h  = hidden a1 c_dst x6                        the returned features
    l  = logits a1 c_dst x6 x7 x8                  the classifier on the clamped features

  The host-side pieces (the degree columns, the bias rows, the aggregation) are written with the very operations the
  programs print, so that what a host stretch of the program leaves in a buffer IS such a term.
-/
import proofs.«158908_j75127567942075_2_alg».proof.Proof.Tiles

noncomputable section

namespace Cert.KernelIdeal.Layers

open Cert.KernelIdeal Cert.KernelIdeal.Gen Idealize.ShloMosaic

/-- The column of degree factors of an index list: the number of occurrences of each node (a scatter-add of ones into
    zeros), clamped below at one, inverse square root, laid as an N × 1 column. -/
def degCol (idx : IVec S1600000 32) : FVec Ideal S100000x1 .f32 :=
  broadcastInDim S100000x1 ![0] bcast_S100000_S100000x1_0
    (Host.rsqrt (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32))))

/-- A bias vector laid as a 1 × 128 row. -/
def biasRow (b : FVec Ideal S128 .f32) : FVec Ideal S1x128 .f32 := broadcastInDim S1x128 ![1] bcast_S128_S1x128_1 b

/-- A bias vector laid as a 1 × 40 row. -/
def biasRow40 (b : FVec Ideal S40 .f32) : FVec Ideal S1x40 .f32 := broadcastInDim S1x40 ![1] bcast_S40_S1x40_1 b

/-- The sparse aggregation: row e of the gathered array is row src(e) of T (a negative index wrapped once by N), and
    the rows are added up at their targets dst(e), starting from zeros. -/
def aggregate (T : FVec Ideal S100000x128 .bf16) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32 (Host.gather gather_S100000x128_S1600000x1_S1600000x128_1_0_n_n_0_1_1128 T
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) bitsLt_bf16_f32)

variable (hc : ColOk) (hr : RowOk) (hz : ZeroOk) (hr' : Row40Ok)
variable (x0 : FVec Ideal S100000x256 .f32) (x1 x2 : IVec S1600000 32) (x3 : FVec Ideal S256x128 .f32) (x4 : FVec Ideal S128 .f32)
  (x5 : FVec Ideal S128x128 .f32) (x6 : FVec Ideal S128 .f32) (x7 : FVec Ideal S128x40 .f32) (x8 : FVec Ideal S40 .f32)

/-- The first layer's transformed, source-scaled features. -/
def netT0 : FVec Ideal S100000x128 .f32 := layer0 hc x0 x3 (degCol x1)
/-- Their aggregation. -/
def netA0 : FVec Ideal S100000x128 .f32 := aggregate (netT0 hc x0 x1 x3) x1 x2
/-- The second layer's transformed, source-scaled features. -/
def netT1 : FVec Ideal S100000x128 .f32 := layer1 hc hr hz (netA0 hc x0 x1 x2 x3) (degCol x2) (biasRow x4) (degCol x1) x5
/-- Their aggregation. -/
def netA1 : FVec Ideal S100000x128 .f32 := aggregate (netT1 hc hr hz x0 x1 x2 x3 x4 x5) x1 x2
/-- The returned features. -/
def netH : FVec Ideal S100000x128 .f32 := hidden hc hr (netA1 hc hr hz x0 x1 x2 x3 x4 x5) (degCol x2) (biasRow x6)
/-- The returned logits. -/
def netL : FVec Ideal S100000x40 .f32 :=
  logits hc hr hz hr' (netA1 hc hr hz x0 x1 x2 x3 x4 x5) (degCol x2) (biasRow x6) x7 (biasRow40 x8)

end Cert.KernelIdeal.Layers

end
-- ==== Proof.Chain.lean ====
/-
  What the kernel program's buffers hold at each boundary of its run, in closed form.

  The run passes through six boundaries after the launch: after the first host stretch, after region 0, after the
  second stretch, after region 1, after the third stretch, after region 2. A host stretch applies its operations'
  functions: a buffer it writes holds the composed function of the previous contents, any other buffer is
  unchanged. A region leaves each of its output arrays at the whole-array function proved in `Region0` … `Region2`
  of the arrays it found, its input arrays as it found them, and does not touch any other buffer. Following each
  buffer the next step reads from the launch memory onwards gives, boundary by boundary: the degree columns, the
  weights (whose rounded copies are, on extended reals, the weights themselves), the bias rows, then
  `netT0`, `netA0`, `netT1`, `netA1` and finally the two results `netH` and `netL` of the launch contents of the
  nine arguments.
-/
import proofs.«158908_j75127567942075_2_alg».proof.Proof.Gen.KernelIdeal.Frame
import proofs.«158908_j75127567942075_2_alg».proof.Proof.Region0
import proofs.«158908_j75127567942075_2_alg».proof.Proof.Region1
import proofs.«158908_j75127567942075_2_alg».proof.Proof.Region2
import proofs.«158908_j75127567942075_2_alg».proof.Proof.Network
import Idealize.ShloMosaic.Lib.StableHlo.Run

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.StableHlo

variable (hc : ColOk) (hr : RowOk) (hz : ZeroOk) (hr' : Row40Ok)
variable (m : (ℓ : Loc nD τ sig) → Buf (Elt Ideal) ℓ) (ρ : Dev nD → PrngReg) (c : Dev nD)

/-! ## After the first host stretch -/

theorem b1_arg0 : W1 m ρ c (Proc.devRef .tc main_arg0) = (m ((c : Thread nD τ).loc main_arg0)) := by
  show StableHlo.after hostOps0 (W0 m ρ c) (Proc.devRef .tc main_arg0) = _
  after_results <;> rfl
theorem b1_arg1 : W1 m ρ c (Proc.devRef .tc main_arg1) = (m ((c : Thread nD τ).loc main_arg1)) := by
  show StableHlo.after hostOps0 (W0 m ρ c) (Proc.devRef .tc main_arg1) = _
  after_results <;> rfl
theorem b1_arg2 : W1 m ρ c (Proc.devRef .tc main_arg2) = (m ((c : Thread nD τ).loc main_arg2)) := by
  show StableHlo.after hostOps0 (W0 m ρ c) (Proc.devRef .tc main_arg2) = _
  after_results <;> rfl
theorem b1_arg3 : W1 m ρ c (Proc.devRef .tc main_arg3) = (m ((c : Thread nD τ).loc main_arg3)) := by
  show StableHlo.after hostOps0 (W0 m ρ c) (Proc.devRef .tc main_arg3) = _
  after_results <;> rfl
theorem b1_arg4 : W1 m ρ c (Proc.devRef .tc main_arg4) = (m ((c : Thread nD τ).loc main_arg4)) := by
  show StableHlo.after hostOps0 (W0 m ρ c) (Proc.devRef .tc main_arg4) = _
  after_results <;> rfl
theorem b1_arg5 : W1 m ρ c (Proc.devRef .tc main_arg5) = (m ((c : Thread nD τ).loc main_arg5)) := by
  show StableHlo.after hostOps0 (W0 m ρ c) (Proc.devRef .tc main_arg5) = _
  after_results <;> rfl
theorem b1_arg6 : W1 m ρ c (Proc.devRef .tc main_arg6) = (m ((c : Thread nD τ).loc main_arg6)) := by
  show StableHlo.after hostOps0 (W0 m ρ c) (Proc.devRef .tc main_arg6) = _
  after_results <;> rfl
theorem b1_arg7 : W1 m ρ c (Proc.devRef .tc main_arg7) = (m ((c : Thread nD τ).loc main_arg7)) := by
  show StableHlo.after hostOps0 (W0 m ρ c) (Proc.devRef .tc main_arg7) = _
  after_results <;> rfl
theorem b1_arg8 : W1 m ρ c (Proc.devRef .tc main_arg8) = (m ((c : Thread nD τ).loc main_arg8)) := by
  show StableHlo.after hostOps0 (W0 m ρ c) (Proc.devRef .tc main_arg8) = _
  after_results <;> rfl
theorem b1_v13 : W1 m ρ c (Proc.devRef .tc main_v13) = degCol (m ((c : Thread nD τ).loc main_arg1)) := by
  show StableHlo.after hostOps0 (W0 m ρ c) (Proc.devRef .tc main_v13) = _
  after_results <;> rfl
theorem b1_v14 : W1 m ρ c (Proc.devRef .tc main_v14) = degCol (m ((c : Thread nD τ).loc main_arg2)) := by
  show StableHlo.after hostOps0 (W0 m ρ c) (Proc.devRef .tc main_v14) = _
  after_results <;> rfl
theorem b1_v15 : (W1 m ρ c (Proc.devRef .tc main_v15) : S256x128.Idx → EReal) = (m ((c : Thread nD τ).loc main_arg3)) := by
  show StableHlo.after hostOps0 (W0 m ρ c) (Proc.devRef .tc main_v15) = _
  after_results <;> rfl
theorem b1_v16 : (W1 m ρ c (Proc.devRef .tc main_v16) : S128x128.Idx → EReal) = (m ((c : Thread nD τ).loc main_arg5)) := by
  show StableHlo.after hostOps0 (W0 m ρ c) (Proc.devRef .tc main_v16) = _
  after_results <;> rfl
theorem b1_v17 : (W1 m ρ c (Proc.devRef .tc main_v17) : S128x40.Idx → EReal) = (m ((c : Thread nD τ).loc main_arg7)) := by
  show StableHlo.after hostOps0 (W0 m ρ c) (Proc.devRef .tc main_v17) = _
  after_results <;> rfl

/-! ## After region 0 -/

theorem b2_v18 : (W2 m ρ c (Proc.devRef .tc main_v18) : S100000x128.Idx → EReal) = netT0 hc (m ((c : Thread nD τ).loc main_arg0)) (m ((c : Thread nD τ).loc main_arg1)) (m ((c : Thread nD τ).loc main_arg3)) := by
  refine ((W2_arr m ρ c 3).trans (array0 (V1 m ρ) hc c)).trans ?_
  show layer0 hc (W1 m ρ c (Proc.devRef .tc main_arg0)) (W1 m ρ c (Proc.devRef .tc main_v15)) (W1 m ρ c (Proc.devRef .tc main_v13)) = _
  rw [b1_arg0, b1_v15, b1_v13]
  rfl
theorem b2_v13 : W2 m ρ c (Proc.devRef .tc main_v13) = degCol (m ((c : Thread nD τ).loc main_arg1)) :=
  ((W2_arr m ρ c 2).trans (((dat0 (V1 m ρ) c).arrAt_in 2 rfl _).trans (A_eq0 (V1 m ρ) c 2))).trans (b1_v13 m ρ c)
theorem b2_arg1 : W2 m ρ c (Proc.devRef .tc main_arg1) = (m ((c : Thread nD τ).loc main_arg1)) :=
  (W2_of_ne m ρ c main_arg1 (by decide)).trans (b1_arg1 m ρ c)
theorem b2_arg2 : W2 m ρ c (Proc.devRef .tc main_arg2) = (m ((c : Thread nD τ).loc main_arg2)) :=
  (W2_of_ne m ρ c main_arg2 (by decide)).trans (b1_arg2 m ρ c)
theorem b2_arg4 : W2 m ρ c (Proc.devRef .tc main_arg4) = (m ((c : Thread nD τ).loc main_arg4)) :=
  (W2_of_ne m ρ c main_arg4 (by decide)).trans (b1_arg4 m ρ c)
theorem b2_arg6 : W2 m ρ c (Proc.devRef .tc main_arg6) = (m ((c : Thread nD τ).loc main_arg6)) :=
  (W2_of_ne m ρ c main_arg6 (by decide)).trans (b1_arg6 m ρ c)
theorem b2_arg8 : W2 m ρ c (Proc.devRef .tc main_arg8) = (m ((c : Thread nD τ).loc main_arg8)) :=
  (W2_of_ne m ρ c main_arg8 (by decide)).trans (b1_arg8 m ρ c)
theorem b2_v14 : W2 m ρ c (Proc.devRef .tc main_v14) = degCol (m ((c : Thread nD τ).loc main_arg2)) :=
  (W2_of_ne m ρ c main_v14 (by decide)).trans (b1_v14 m ρ c)
theorem b2_v16 : (W2 m ρ c (Proc.devRef .tc main_v16) : S128x128.Idx → EReal) = (m ((c : Thread nD τ).loc main_arg5)) :=
  (W2_of_ne m ρ c main_v16 (by decide)).trans (b1_v16 m ρ c)
theorem b2_v17 : (W2 m ρ c (Proc.devRef .tc main_v17) : S128x40.Idx → EReal) = (m ((c : Thread nD τ).loc main_arg7)) :=
  (W2_of_ne m ρ c main_v17 (by decide)).trans (b1_v17 m ρ c)

/-! ## After the second host stretch -/

theorem b3_v29 : (W3 m ρ c (Proc.devRef .tc main_v29) : S100000x128.Idx → EReal) = netA0 hc (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v29) = _
  after_results
  rw [b2_v18 hc, b2_arg1, b2_arg2]
  rfl
theorem b3_v30 : W3 m ρ c (Proc.devRef .tc main_v30) = biasRow (m ((c : Thread nD τ).loc main_arg4)) := by
  show StableHlo.after hostOps1 (W2 m ρ c) (Proc.devRef .tc main_v30) = _
  after_results
  rw [b2_arg4]
  rfl
theorem b3_arg1 : W3 m ρ c (Proc.devRef .tc main_arg1) = (m ((c : Thread nD τ).loc main_arg1)) := by
  show StableHlo.after hostOps1 (W2 m ρ c) (Proc.devRef .tc main_arg1) = _
  after_results
  exact b2_arg1 m ρ c
theorem b3_arg2 : W3 m ρ c (Proc.devRef .tc main_arg2) = (m ((c : Thread nD τ).loc main_arg2)) := by
  show StableHlo.after hostOps1 (W2 m ρ c) (Proc.devRef .tc main_arg2) = _
  after_results
  exact b2_arg2 m ρ c
theorem b3_arg6 : W3 m ρ c (Proc.devRef .tc main_arg6) = (m ((c : Thread nD τ).loc main_arg6)) := by
  show StableHlo.after hostOps1 (W2 m ρ c) (Proc.devRef .tc main_arg6) = _
  after_results
  exact b2_arg6 m ρ c
theorem b3_arg8 : W3 m ρ c (Proc.devRef .tc main_arg8) = (m ((c : Thread nD τ).loc main_arg8)) := by
  show StableHlo.after hostOps1 (W2 m ρ c) (Proc.devRef .tc main_arg8) = _
  after_results
  exact b2_arg8 m ρ c
theorem b3_v13 : W3 m ρ c (Proc.devRef .tc main_v13) = degCol (m ((c : Thread nD τ).loc main_arg1)) := by
  show StableHlo.after hostOps1 (W2 m ρ c) (Proc.devRef .tc main_v13) = _
  after_results
  exact b2_v13 m ρ c
theorem b3_v14 : W3 m ρ c (Proc.devRef .tc main_v14) = degCol (m ((c : Thread nD τ).loc main_arg2)) := by
  show StableHlo.after hostOps1 (W2 m ρ c) (Proc.devRef .tc main_v14) = _
  after_results
  exact b2_v14 m ρ c
theorem b3_v16 : (W3 m ρ c (Proc.devRef .tc main_v16) : S128x128.Idx → EReal) = (m ((c : Thread nD τ).loc main_arg5)) := by
  show StableHlo.after hostOps1 (W2 m ρ c) (Proc.devRef .tc main_v16) = _
  after_results
  exact b2_v16 m ρ c
theorem b3_v17 : (W3 m ρ c (Proc.devRef .tc main_v17) : S128x40.Idx → EReal) = (m ((c : Thread nD τ).loc main_arg7)) := by
  show StableHlo.after hostOps1 (W2 m ρ c) (Proc.devRef .tc main_v17) = _
  after_results
  exact b2_v17 m ρ c

/-! ## After region 1 -/

theorem b4_v31 : (W4 m ρ c (Proc.devRef .tc main_v31) : S100000x128.Idx → EReal)
    = netT1 hc hr hz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W4_arr m ρ c 5).trans (array1 (V3 m ρ) hc hr hz c)).trans ?_
  show layer1 hc hr hz (W3 m ρ c (Proc.devRef .tc main_v29)) (W3 m ρ c (Proc.devRef .tc main_v14)) (W3 m ρ c (Proc.devRef .tc main_v30))
    (W3 m ρ c (Proc.devRef .tc main_v13)) (W3 m ρ c (Proc.devRef .tc main_v16)) = _
  rw [b3_v29 hc, b3_v14, b3_v30, b3_v13, b3_v16]
  rfl
theorem b4_v14 : W4 m ρ c (Proc.devRef .tc main_v14) = degCol (m ((c : Thread nD τ).loc main_arg2)) :=
  ((W4_arr m ρ c 1).trans (((dat1 (V3 m ρ) c).arrAt_in 1 rfl _).trans (A_eq1 (V3 m ρ) c 1))).trans (b3_v14 m ρ c)
theorem b4_arg1 : W4 m ρ c (Proc.devRef .tc main_arg1) = (m ((c : Thread nD τ).loc main_arg1)) :=
  (W4_of_ne m ρ c main_arg1 (by decide)).trans (b3_arg1 m ρ c)
theorem b4_arg2 : W4 m ρ c (Proc.devRef .tc main_arg2) = (m ((c : Thread nD τ).loc main_arg2)) :=
  (W4_of_ne m ρ c main_arg2 (by decide)).trans (b3_arg2 m ρ c)
theorem b4_arg6 : W4 m ρ c (Proc.devRef .tc main_arg6) = (m ((c : Thread nD τ).loc main_arg6)) :=
  (W4_of_ne m ρ c main_arg6 (by decide)).trans (b3_arg6 m ρ c)
theorem b4_arg8 : W4 m ρ c (Proc.devRef .tc main_arg8) = (m ((c : Thread nD τ).loc main_arg8)) :=
  (W4_of_ne m ρ c main_arg8 (by decide)).trans (b3_arg8 m ρ c)
theorem b4_v17 : (W4 m ρ c (Proc.devRef .tc main_v17) : S128x40.Idx → EReal) = (m ((c : Thread nD τ).loc main_arg7)) :=
  (W4_of_ne m ρ c main_v17 (by decide)).trans (b3_v17 m ρ c)

/-! ## After the third host stretch -/

set_option maxHeartbeats 1600000 in
theorem b5_v42 : (W5 m ρ c (Proc.devRef .tc main_v42) : S100000x128.Idx → EReal)
    = netA1 hc hr hz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v42) = _
  after_results
  rw [b4_v31 hc hr hz, b4_arg1, b4_arg2]
  rfl
theorem b5_v43 : W5 m ρ c (Proc.devRef .tc main_v43) = biasRow (m ((c : Thread nD τ).loc main_arg6)) := by
  show StableHlo.after hostOps2 (W4 m ρ c) (Proc.devRef .tc main_v43) = _
  after_results
  rw [b4_arg6]
  rfl
theorem b5_v44 : W5 m ρ c (Proc.devRef .tc main_v44) = biasRow40 (m ((c : Thread nD τ).loc main_arg8)) := by
  show StableHlo.after hostOps2 (W4 m ρ c) (Proc.devRef .tc main_v44) = _
  after_results
  rw [b4_arg8]
  rfl
theorem b5_v14 : W5 m ρ c (Proc.devRef .tc main_v14) = degCol (m ((c : Thread nD τ).loc main_arg2)) := by
  show StableHlo.after hostOps2 (W4 m ρ c) (Proc.devRef .tc main_v14) = _
  after_results
  exact b4_v14 m ρ c
theorem b5_v17 : (W5 m ρ c (Proc.devRef .tc main_v17) : S128x40.Idx → EReal) = (m ((c : Thread nD τ).loc main_arg7)) := by
  show StableHlo.after hostOps2 (W4 m ρ c) (Proc.devRef .tc main_v17) = _
  after_results
  exact b4_v17 m ρ c

/-! ## After region 2: the results -/

/-- The first result buffer ends at the returned features of the launch contents of the arguments. -/
theorem b6_out0 : (W6 m ρ c (Proc.devRef .tc main_v45_0) : S100000x128.Idx → EReal)
    = netH hc hr hz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m ρ c 5).trans (array2h (V5 m ρ) hc hr c)).trans ?_
  show hidden hc hr (W5 m ρ c (Proc.devRef .tc main_v42)) (W5 m ρ c (Proc.devRef .tc main_v14)) (W5 m ρ c (Proc.devRef .tc main_v43)) = _
  rw [b5_v42 hc hr hz, b5_v14, b5_v43]
  rfl

/-- The second result buffer ends at the logits of the launch contents of the arguments. -/
theorem b6_out1 : (W6 m ρ c (Proc.devRef .tc main_v45_1) : S100000x40.Idx → EReal)
    = netL hc hr hz hr' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W6_arr m ρ c 6).trans (array2l (V5 m ρ) hc hr hz hr' c)).trans ?_
  show logits hc hr hz hr' (W5 m ρ c (Proc.devRef .tc main_v42)) (W5 m ρ c (Proc.devRef .tc main_v14)) (W5 m ρ c (Proc.devRef .tc main_v43))
    (W5 m ρ c (Proc.devRef .tc main_v17)) (W5 m ρ c (Proc.devRef .tc main_v44)) = _
  rw [b5_v42 hc hr hz, b5_v14, b5_v43, b5_v17, b5_v44]
  rfl

end Cert.KernelIdeal.Chain

end
-- ==== Proof.Stages.lean ====
/-
  The reference program's stages are the composites of `Network`.

  The reference computes, one host operation at a time, exactly the composition written in `Network`: its matrix
  products are whole-array products with the same dimension numbers, its degree factors, bias rows, gathers and
  scatter-adds are the same operations on the same operands, and its clamps at zero are maxima with a broadcast zero.
  The only differences in spelling are that the kernel program keeps rounded copies of the weights and of the
  gathered rows in a narrower float format; on extended reals a change of format is the identity. So each equality
  below holds by unfolding the definitions on both sides.
-/
import proofs.«158908_j75127567942075_2_alg».proof.Proof.Network
import proofs.«158908_j75127567942075_2_alg».proof.Proof.Gen.ReferenceIdeal.Read

noncomputable section

namespace Cert.Bridge

open Idealize.ShloMosaic Cert.KernelIdeal.Layers
open Cert.KernelIdeal (S100000x256 S1600000 S256x128 S128 S128x128 S128x40 S40)

variable (hc : ColOk) (hr : RowOk) (hz : ZeroOk) (hr' : Row40Ok)
variable (x0 : FVec Ideal S100000x256 .f32) (x1 x2 : IVec S1600000 32) (x3 : FVec Ideal S256x128 .f32) (x4 : FVec Ideal S128 .f32)
  (x5 : FVec Ideal S128x128 .f32) (x6 : FVec Ideal S128 .f32) (x7 : FVec Ideal S128x40 .f32) (x8 : FVec Ideal S40 .f32)

section
open Cert.ReferenceIdeal.Read

/-- The source-degree column, as the reference spells it for the first layer … -/
theorem degCol_v14 : degCol x1 = val_main_v14 (F := Ideal) x1 := by
  unfold degCol val_main_v14 val_main_v9 val_main_v8 val_main_v3 val_main_v7 val_main_v2 val_main_v1 val_main_v0 val_main_cst val_main_cst_0 val_main_cst_2
  rfl
/-- … and for the second. -/
theorem degCol_v35 : degCol x1 = val_main_v35 (F := Ideal) x1 := by
  unfold degCol val_main_v35 val_main_v9 val_main_v8 val_main_v3 val_main_v7 val_main_v2 val_main_v1 val_main_v0 val_main_cst val_main_cst_0 val_main_cst_2
  rfl
/-- The target-degree column, as the reference spells it for the first layer … -/
theorem degCol_v27 : degCol x2 = val_main_v27 (F := Ideal) x2 := by
  unfold degCol val_main_v27 val_main_v12 val_main_v11 val_main_v6 val_main_v10 val_main_v5 val_main_v4 val_main_v0 val_main_cst val_main_cst_1 val_main_cst_3
  rfl
/-- … and for the second. -/
theorem degCol_v48 : degCol x2 = val_main_v48 (F := Ideal) x2 := by
  unfold degCol val_main_v48 val_main_v12 val_main_v11 val_main_v6 val_main_v10 val_main_v5 val_main_v4 val_main_v0 val_main_cst val_main_cst_1 val_main_cst_3
  rfl

/-- The first layer's transformed features. -/
theorem stage_t0 : netT0 hc x0 x1 x3 = val_main_v16 (F := Ideal) x0 x1 x3 := by
  unfold netT0 layer0
  rw [degCol_v14]
  unfold val_main_v16 val_main_v13 val_main_v15
  rfl

/-- Their aggregation. -/
theorem stage_a0 : netA0 hc x0 x1 x2 x3 = val_main_v26 (F := Ideal) x0 x1 x2 x3 := by
  unfold netA0 aggregate
  rw [stage_t0]
  unfold val_main_v26 val_main_v24 val_main_v25 val_main_v23 val_main_v22 val_main_v21 val_main_v20 val_main_v19 val_main_v18 val_main_v17 val_main_c val_main_c_4 val_main_cst_5
  rfl

/-- The second layer's transformed features. -/
theorem stage_t1 : netT1 hc hr hz x0 x1 x2 x3 x4 x5 = val_main_v37 (F := Ideal) x0 x1 x2 x3 x4 x5 := by
  unfold netT1 layer1 relu Cert.KernelIdeal.Layers.hidden
  rw [stage_a0, degCol_v27, degCol_v35]
  unfold biasRow val_main_v37 val_main_v34 val_main_v36 val_main_v33 val_main_v32 val_main_v29 val_main_v31 val_main_v30 val_main_v28 val_main_call0_v0 val_main_call0_cst
  rfl

/-- Their aggregation. -/
theorem stage_a1 : netA1 hc hr hz x0 x1 x2 x3 x4 x5 = val_main_v47 (F := Ideal) x0 x1 x2 x3 x4 x5 := by
  unfold netA1 aggregate
  rw [stage_t1]
  unfold val_main_v47 val_main_v45 val_main_v46 val_main_v44 val_main_v43 val_main_v42 val_main_v41 val_main_v40 val_main_v39 val_main_v38 val_main_c_6 val_main_c_7 val_main_cst_8
  rfl

/-- The returned features. -/
theorem stage_h : netH hc hr hz x0 x1 x2 x3 x4 x5 x6 = val_main_v53 (F := Ideal) x0 x1 x2 x3 x4 x5 x6 := by
  unfold netH Cert.KernelIdeal.Layers.hidden
  rw [stage_a1, degCol_v48]
  unfold biasRow val_main_v53 val_main_v50 val_main_v52 val_main_v51 val_main_v49
  rfl

/-- The returned logits. -/
theorem stage_l : netL hc hr hz hr' x0 x1 x2 x3 x4 x5 x6 x7 x8 = val_main_v58 (F := Ideal) x0 x1 x2 x3 x4 x5 x6 x7 x8 := by
  have e := stage_h hc hr hz x0 x1 x2 x3 x4 x5 x6
  unfold netH at e
  unfold netL logits
  rw [e]
  unfold relu biasRow40 val_main_v58 val_main_v55 val_main_v57 val_main_v56 val_main_v54 val_main_call1_v0 val_main_call1_cst
  rfl

end

end Cert.Bridge

end
-- ==== Proof.lean ====
/-
  A two-layer graph convolution with a classifier head, computed by three fused kernels among host operations,
  against its plain reference: the two programs compute the same function on the extended reals.

  THE FUNCTION. For N = 100000 nodes with features x (N × 256), E = 1600000 edges (src, dst), weights W0, W1, Wc and
  biases b0, b1, bc: with the degree factors c_src = max(outdeg, 1)^(-1/2), c_dst = max(indeg, 1)^(-1/2),

      t0 = (x · W0) ⊙ c_src,            a0 = Σ over edges e into each node of t0[src e],
      t1 = (max(a0 ⊙ c_dst ⊕ b0, 0) · W1) ⊙ c_src,   a1 = Σ over edges e into each node of t1[src e],
      h  = a1 ⊙ c_dst ⊕ b1,             logits = max(h, 0) · Wc ⊕ bc,

  and the results are (h, logits). The reference computes exactly this, one whole-array operation at a time.

  THE KERNEL PROGRAM computes the degree factors, the gathers and the scatter-adds on the host with the same
  operations, and each of the three dense stages by a kernel over 20 tiles of 5000 rows. Every dense stage is
  row-local (row r of its result depends only on row r of its tiled operands), so a stage computed tile by tile is the
  stage computed at once: `Tiles` proves it for one tile, `Region0` … `Region2` for the whole output arrays, `Chain`
  follows the buffers through the six boundaries of the run, and `Stages` identifies the composites with the
  reference's stages. The kernel rounds some operands to a narrower float format; on extended reals that is the
  identity. No step uses a law that fails at the infinities — the two sides are the same sums of the same products —
  so the precondition (finite inputs) is never opened.

  THE CLAIMS. The three frames: the two kernel programs' are the generated frame certificates; the reference's is its
  generated run with the results dropped. The idealized kernel is the kernel's own text read on extended reals (the
  idealization rewrote nothing), so `preserves` has nothing to state. `algebraic`: the kernel program's run ends,
  at every buffer that outlives the kernels, at the last boundary's contents (`KernelBoundary`), which at the two
  result buffers are `netH` and `netL` of the arguments; the reference's run ends at its composed terms, which are
  the same two functions of arguments that agree.
-/
import proofs.«158908_j75127567942075_2_alg».proof.Defs
import proofs.«158908_j75127567942075_2_alg».proof.Proof.Gen.Kernel
import proofs.«158908_j75127567942075_2_alg».proof.Proof.Gen.Kernel.Frame
import proofs.«158908_j75127567942075_2_alg».proof.Proof.Gen.KernelIdeal
import proofs.«158908_j75127567942075_2_alg».proof.Proof.Gen.KernelIdeal.Frame
import proofs.«158908_j75127567942075_2_alg».proof.Proof.Gen.ReferenceIdeal
import proofs.«158908_j75127567942075_2_alg».proof.Proof.Gen.Pre_finite_inputs
import proofs.«158908_j75127567942075_2_alg».proof.Proof.Gen.ReferenceIdeal.Run
import proofs.«158908_j75127567942075_2_alg».proof.Proof.Gen.ReferenceIdeal.Read
import proofs.«158908_j75127567942075_2_alg».proof.Proof.KernelBoundary
import proofs.«158908_j75127567942075_2_alg».proof.Proof.Chain
import proofs.«158908_j75127567942075_2_alg».proof.Proof.Stages
import Idealize.ShloMosaic.Adequacy
import Idealize.ShloMosaic.Init

set_option maxRecDepth 16384

noncomputable section

namespace Cert.Proof

open Idealize.ShloMosaic Idealize.SL.Sem Cert.KernelIdeal.Layers

/-- The layouts the whole-array functions repeat a column, a row or a constant through are well formed (the reference
    program states them of its own broadcasts). -/
theorem colOk : ColOk := Cert.ReferenceIdeal.Facts₀.bcast_S100000x1_S100000x128_0_1
theorem rowOk : RowOk := Cert.ReferenceIdeal.Facts₀.bcast_S1x128_S100000x128_0_1
theorem zeroOk : ZeroOk := Cert.ReferenceIdeal.Facts₀.bcast_S_S100000x128
theorem row40Ok : Row40Ok := Cert.ReferenceIdeal.Facts₀.bcast_S1x40_S100000x40_0_1

/-- The kernel program as printed runs, and its arguments end unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs, and its arguments end unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs run and end with the same two results: the returned
    features `netH` and the logits `netL` of the arguments. -/
theorem algebraic : Cert.algebraic_KernelIdeal_ReferenceIdeal := by
  intro m ρ m' ρ' _ hagree
  refine ⟨fun c => netH colOk rowOk zeroOk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => netL colOk rowOk zeroOk row40Ok (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · -- the kernel program: every buffer that outlives the kernels ends at the last boundary's contents
    refine (θ_run Cert.KernelIdeal.defs _ _).mono (fun r h c => ?_) (Cert.KernelIdeal.Boundary.run_last m ρ)
    exact ⟨(h c _ (Cert.KernelIdeal.Gen.mem_uc Cert.KernelIdeal.main_v45_0 (by decide))).trans (Cert.KernelIdeal.Chain.b6_out0 colOk rowOk zeroOk m ρ c),
      (h c _ (Cert.KernelIdeal.Gen.mem_uc Cert.KernelIdeal.main_v45_1 (by decide))).trans (Cert.KernelIdeal.Chain.b6_out1 colOk rowOk zeroOk row40Ok m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c)⟩
  · -- the reference: its composed terms are the same functions of arguments that agree
    refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v53_eq, (hagree c).1, (hagree c).2.1, (hagree c).2.2.1, (hagree c).2.2.2.1, (hagree c).2.2.2.2.1, (hagree c).2.2.2.2.2.1, (hagree c).2.2.2.2.2.2.1]
      exact (Cert.Bridge.stage_h colOk rowOk zeroOk _ _ _ _ _ _ _).symm
    · rw [Cert.ReferenceIdeal.Read.val_main_v58_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (Cert.Bridge.stage_l colOk rowOk zeroOk row40Ok _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
